-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x768 : Shape := ⟨2, ![131072, 768]⟩
abbrev S2x4915 : Shape := ⟨2, ![2, 4915]⟩
abbrev S4915 : Shape := ⟨1, ![4915]⟩
abbrev S64 : Shape := ⟨1, ![64]⟩
abbrev S2x409 : Shape := ⟨2, ![2, 409]⟩
abbrev S409 : Shape := ⟨1, ![409]⟩
abbrev S2x32 : Shape := ⟨2, ![2, 32]⟩
abbrev S32 : Shape := ⟨1, ![32]⟩
abbrev S1 : Shape := ⟨1, ![1]⟩
abbrev S_ : Shape := ⟨0, ![]⟩

class Facts : Prop where
  bcast_S_S131072x768 : S_.BroadcastsInDim S131072x768 (![] : Fin 0 → Fin S131072x768.rank)
  reducesTo_S131072x768_S_d0_1 : S131072x768.ReducesTo [0, 1] S_
  h_S_ : 0 < S_.numel
  bcast_S_S4915 : S_.BroadcastsInDim S4915 (![] : Fin 0 → Fin S4915.rank)
  reducesTo_S4915_S_d0 : S4915.ReducesTo [0] S_
  bcast_S_S64 : S_.BroadcastsInDim S64 (![] : Fin 0 → Fin S64.rank)
  reducesTo_S64_S_d0 : S64.ReducesTo [0] S_
  bcast_S_S409 : S_.BroadcastsInDim S409 (![] : Fin 0 → Fin S409.rank)
  reducesTo_S409_S_d0 : S409.ReducesTo [0] S_
  bcast_S_S32 : S_.BroadcastsInDim S32 (![] : Fin 0 → Fin S32.rank)
  reducesTo_S32_S_d0 : S32.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg8 : FVec F S32 .f32) (main_arg9 : FVec F S1 .f32) (main_v13 : IVec S_ 1) (main_v16 : IVec S409 1) : IVec S_ 1 :=
  let main_c_5 : IVec S_ 1 := constantI S_ 1 1#1
  let main_v17 : IVec S_ 1 := (fun x v => Host.reduce IntOp.andi x v reducesTo_S409_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32 .f32 := Host.absf main_arg8
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S131072x768 .f32) (main_arg1 : IVec S2x4915 32) (main_arg2 : FVec F S4915 .f32) (main_arg3 : FVec F S64 .f32) (main_arg4 : IVec S2x409 32) (main_arg5 : FVec F S409 .f32) (main_arg6 : FVec F S64 .f32) (main_arg7 : IVec S2x32 32) (main_arg8 : FVec F S32 .f32) (main_arg9 : FVec F S1 .f32) : IVec S_ 1 :=
  let main_v0 : FVec F S131072x768 .f32 := Host.absf main_arg0
  let main_cst : FVec F S_ .f32 := constant S_ .f32 0x7F800000#32
  let main_v1 : FVec F S131072x768 .f32 := broadcastInDim S131072x768 ![] bcast_S_S131072x768 main_cst
  let main_v2 : IVec S131072x768 1 := cmpf .olt main_v0 main_v1
  let main_c : IVec S_ 1 := constantI S_ 1 1#1
  let main_v3 : IVec S_ 1 := (fun x v => Host.reduce IntOp.andi x v reducesTo_S131072x768_S_d0_1 h_S_) main_v2 main_c
  let main_v4 : FVec F S4915 .f32 := Host.absf main_arg2
  let main_cst_0 : FVec F S_ .f32 := constant S_ .f32 0x7F800000#32
  let main_v5 : FVec F S4915 .f32 := broadcastInDim S4915 ![] bcast_S_S4915 main_cst_0
  let main_v6 : IVec S4915 1 := cmpf .olt main_v4 main_v5
  let main_c_1 : IVec S_ 1 := constantI S_ 1 1#1
  let main_v7 : IVec S_ 1 := (fun x v => Host.reduce IntOp.andi x v reducesTo_S4915_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S409 .f32 := Host.absf main_arg5
  let main_cst_4 : FVec F S_ .f32 := constant S_ .f32 0x7F800000#32
  let main_v15 : FVec F S409 .f32 := broadcastInDim S409 ![] bcast_S_S409 main_cst_4
  let main_v16 : IVec S409 1 := cmpf .olt main_v14 main_v15
  fn_part1 (F := F) main_arg6 main_arg8 main_arg9 main_v13 main_v16
-- ==== Kernel.lean ====
abbrev S131072x768 : Shape := ⟨2, ![131072, 768]⟩
abbrev S2x4915 : Shape := ⟨2, ![2, 4915]⟩
abbrev S4915 : Shape := ⟨1, ![4915]⟩
abbrev S64 : Shape := ⟨1, ![64]⟩
abbrev S2x409 : Shape := ⟨2, ![2, 409]⟩
abbrev S409 : Shape := ⟨1, ![409]⟩
abbrev S2x32 : Shape := ⟨2, ![2, 32]⟩
abbrev S32 : Shape := ⟨1, ![32]⟩
abbrev S1 : Shape := ⟨1, ![1]⟩
abbrev S_ : Shape := ⟨0, ![]⟩
abbrev S768x64 : Shape := ⟨2, ![768, 64]⟩
abbrev S1x4915 : Shape := ⟨2, ![1, 4915]⟩
abbrev S4915x1 : Shape := ⟨2, ![4915, 1]⟩
abbrev S4915x2 : Shape := ⟨2, ![4915, 2]⟩
abbrev S64x64 : Shape := ⟨2, ![64, 64]⟩
abbrev S1x409 : Shape := ⟨2, ![1, 409]⟩
abbrev S409x1 : Shape := ⟨2, ![409, 1]⟩
abbrev S409x2 : Shape := ⟨2, ![409, 2]⟩
abbrev S64x1 : Shape := ⟨2, ![64, 1]⟩
abbrev S1x32 : Shape := ⟨2, ![1, 32]⟩
abbrev S32x1 : Shape := ⟨2, ![32, 1]⟩
abbrev S32x2 : Shape := ⟨2, ![32, 2]⟩
abbrev S1x64 : Shape := ⟨2, ![1, 64]⟩
abbrev S1x1 : Shape := ⟨2, ![1, 1]⟩
abbrev S131072x1 : Shape := ⟨2, ![131072, 1]⟩
abbrev S4096x768 : Shape := ⟨2, ![4096, 768]⟩
abbrev S4096x1 : Shape := ⟨2, ![4096, 1]⟩
abbrev S4096x64 : Shape := ⟨2, ![4096, 64]⟩
abbrev S4096 : Shape := ⟨1, ![4096]⟩

abbrev nBuf : Space → Nat
  | .hbm => 89
  | .vmem => 10
  | .smem => 0
  | _ => 0

abbrev bufTy : (tb : Table) → Fin (tcTables nBuf tb) → BufTy
  | .hbm, ⟨0, _⟩ => ⟨S131072x768, .f32⟩
  | .hbm, ⟨1, _⟩ => ⟨S2x4915, .i32⟩
  | .hbm, ⟨2, _⟩ => ⟨S4915, .f32⟩
  | .hbm, ⟨3, _⟩ => ⟨S64, .f32⟩
  | .hbm, ⟨4, _⟩ => ⟨S2x409, .i32⟩
  | .hbm, ⟨5, _⟩ => ⟨S409, .f32⟩
  | .hbm, ⟨6, _⟩ => ⟨S64, .f32⟩
  | .hbm, ⟨7, _⟩ => ⟨S2x32, .i32⟩
  | .hbm, ⟨8, _⟩ => ⟨S32, .f32⟩
  | .hbm, ⟨9, _⟩ => ⟨S1, .f32⟩
  | .hbm, ⟨10, _⟩ => ⟨S_, .f32⟩
  | .hbm, ⟨11, _⟩ => ⟨S768x64, .f32⟩
  | .hbm, ⟨12, _⟩ => ⟨S1x4915, .i32⟩
  | .hbm, ⟨13, _⟩ => ⟨S4915, .i32⟩
  | .hbm, ⟨14, _⟩ => ⟨S1x4915, .i32⟩
  | .hbm, ⟨15, _⟩ => ⟨S4915, .i32⟩
  | .hbm, ⟨16, _⟩ => ⟨S_, .i32⟩
  | .hbm, ⟨17, _⟩ => ⟨S4915, .i32⟩
  | .hbm, ⟨18, _⟩ => ⟨S4915, .i1⟩
  | .hbm, ⟨19, _⟩ => ⟨S_, .i32⟩
  | .hbm, ⟨20, _⟩ => ⟨S4915, .i32⟩
  | .hbm, ⟨21, _⟩ => ⟨S4915, .i32⟩
  | .hbm, ⟨22, _⟩ => ⟨S4915, .i32⟩
  | .hbm, ⟨23, _⟩ => ⟨S_, .i32⟩
  | .hbm, ⟨24, _⟩ => ⟨S4915, .i32⟩
  | .hbm, ⟨25, _⟩ => ⟨S4915, .i1⟩
  | .hbm, ⟨26, _⟩ => ⟨S_, .i32⟩
  | .hbm, ⟨27, _⟩ => ⟨S4915, .i32⟩
  | .hbm, ⟨28, _⟩ => ⟨S4915, .i32⟩
  | .hbm, ⟨29, _⟩ => ⟨S4915, .i32⟩
  | .hbm, ⟨30, _⟩ => ⟨S4915x1, .i32⟩
  | .hbm, ⟨31, _⟩ => ⟨S4915x1, .i32⟩
  | .hbm, ⟨32, _⟩ => ⟨S4915x2, .i32⟩
  | .hbm, ⟨33, _⟩ => ⟨S768x64, .f32⟩
  | .hbm, ⟨34, _⟩ => ⟨S768x64, .bf16⟩
  | .hbm, ⟨35, _⟩ => ⟨S_, .f32⟩
  | .hbm, ⟨36, _⟩ => ⟨S64x64, .f32⟩
  | .hbm, ⟨37, _⟩ => ⟨S1x409, .i32⟩
  | .hbm, ⟨38, _⟩ => ⟨S409, .i32⟩
  | .hbm, ⟨39, _⟩ => ⟨S1x409, .i32⟩
  | .hbm, ⟨40, _⟩ => ⟨S409, .i32⟩
  | .hbm, ⟨41, _⟩ => ⟨S_, .i32⟩
  | .hbm, ⟨42, _⟩ => ⟨S409, .i32⟩
  | .hbm, ⟨43, _⟩ => ⟨S409, .i1⟩
  | .hbm, ⟨44, _⟩ => ⟨S_, .i32⟩
  | .hbm, ⟨45, _⟩ => ⟨S409, .i32⟩
  | .hbm, ⟨46, _⟩ => ⟨S409, .i32⟩
  | .hbm, ⟨47, _⟩ => ⟨S409, .i32⟩
  | .hbm, ⟨48, _⟩ => ⟨S_, .i32⟩
  | .hbm, ⟨49, _⟩ => ⟨S409, .i32⟩
  | .hbm, ⟨50, _⟩ => ⟨S409, .i1⟩
  | .hbm, ⟨51, _⟩ => ⟨S_, .i32⟩
  | .hbm, ⟨52, _⟩ => ⟨S409, .i32⟩
  | .hbm, ⟨53, _⟩ => ⟨S409, .i32⟩
  | .hbm, ⟨54, _⟩ => ⟨S409, .i32⟩
  | .hbm, ⟨55, _⟩ => ⟨S409x1, .i32⟩
  | .hbm, ⟨56, _⟩ => ⟨S409x1, .i32⟩
  | .hbm, ⟨57, _⟩ => ⟨S409x2, .i32⟩
  | .hbm, ⟨58, _⟩ => ⟨S64x64, .f32⟩
  | .hbm, ⟨59, _⟩ => ⟨S64x64, .bf16⟩
  | .hbm, ⟨60, _⟩ => ⟨S_, .f32⟩
  | .hbm, ⟨61, _⟩ => ⟨S64x1, .f32⟩
  | .hbm, ⟨62, _⟩ => ⟨S1x32, .i32⟩
  | .hbm, ⟨63, _⟩ => ⟨S32, .i32⟩
  | .hbm, ⟨64, _⟩ => ⟨S1x32, .i32⟩
  | .hbm, ⟨65, _⟩ => ⟨S32, .i32⟩
  | .hbm, ⟨66, _⟩ => ⟨S_, .i32⟩
  | .hbm, ⟨67, _⟩ => ⟨S32, .i32⟩
  | .hbm, ⟨68, _⟩ => ⟨S32, .i1⟩
  | .hbm, ⟨69, _⟩ => ⟨S_, .i32⟩
  | .hbm, ⟨70, _⟩ => ⟨S32, .i32⟩
  | .hbm, ⟨71, _⟩ => ⟨S32, .i32⟩
  | .hbm, ⟨72, _⟩ => ⟨S32, .i32⟩
  | .hbm, ⟨73, _⟩ => ⟨S_, .i32⟩
  | .hbm, ⟨74, _⟩ => ⟨S32, .i32⟩
  | .hbm, ⟨75, _⟩ => ⟨S32, .i1⟩
  | .hbm, ⟨76, _⟩ => ⟨S_, .i32⟩
  | .hbm, ⟨77, _⟩ => ⟨S32, .i32⟩
  | .hbm, ⟨78, _⟩ => ⟨S32, .i32⟩
  | .hbm, ⟨79, _⟩ => ⟨S32, .i32⟩
  | .hbm, ⟨80, _⟩ => ⟨S32x1, .i32⟩
  | .hbm, ⟨81, _⟩ => ⟨S32x1, .i32⟩
  | .hbm, ⟨82, _⟩ => ⟨S32x2, .i32⟩
  | .hbm, ⟨83, _⟩ => ⟨S64x1, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x1, .f32⟩
  | .hbm, ⟨88, _⟩ => ⟨S131072x1, .f32⟩
  | .local _ .vmem, ⟨0, _⟩ => ⟨S4096x768, .f32⟩
  | .local _ .vmem, ⟨1, _⟩ => ⟨S4096x768, .f32⟩
  | .local _ .vmem, ⟨2, _⟩ => ⟨S768x64, .bf16⟩
  | .local _ .vmem, ⟨3, _⟩ => ⟨S1x64, .f32⟩
  | .local _ .vmem, ⟨4, _⟩ => ⟨S64x64, .bf16⟩
  | .local _ .vmem, ⟨5, _⟩ => ⟨S1x64, .f32⟩
  | .local _ .vmem, ⟨6, _⟩ => ⟨S1x64, .f32⟩
  | .local _ .vmem, ⟨7, _⟩ => ⟨S1x1, .f32⟩
  | .local _ .vmem, ⟨8, _⟩ => ⟨S4096x1, .f32⟩
  | .local _ .vmem, ⟨9, _⟩ => ⟨S4096x1, .f32⟩
  | _, _ => ⟨S131072x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S768x64 : S_.BroadcastsInDim S768x64 (![] : Fin 0 → Fin S768x64.rank)
  slices_S2x4915_S1x4915_0_0 : S2x4915.Slices ![0, 0] S1x4915
  shapeCasts_S1x4915_S4915 : S1x4915.ShapeCasts S4915
  slices_S2x4915_S1x4915_1_0 : S2x4915.Slices ![1, 0] S1x4915
  bcast_S_S4915 : S_.BroadcastsInDim S4915 (![] : Fin 0 → Fin S4915.rank)
  bcast_S4915_S4915x1_0 : S4915.BroadcastsInDim S4915x1 (![0] : Fin 1 → Fin S4915x1.rank)
  concatenates_S4915x1_S4915x1_S4915x2_d1 : Shape.Concatenates [S4915x1, S4915x1] S4915x2 1
  bitsLt_bf16_f32 : FTy.bits .bf16 < FTy.bits .f32
  bcast_S_S64x64 : S_.BroadcastsInDim S64x64 (![] : Fin 0 → Fin S64x64.rank)
  slices_S2x409_S1x409_0_0 : S2x409.Slices ![0, 0] S1x409
  shapeCasts_S1x409_S409 : S1x409.ShapeCasts S409
  slices_S2x409_S1x409_1_0 : S2x409.Slices ![1, 0] S1x409
  bcast_S_S409 : S_.BroadcastsInDim S409 (![] : Fin 0 → Fin S409.rank)
  bcast_S409_S409x1_0 : S409.BroadcastsInDim S409x1 (![0] : Fin 1 → Fin S409x1.rank)
  concatenates_S409x1_S409x1_S409x2_d1 : Shape.Concatenates [S409x1, S409x1] S409x2 1
  bcast_S_S64x1 : S_.BroadcastsInDim S64x1 (![] : Fin 0 → Fin S64x1.rank)
  slices_S2x32_S1x32_0_0 : S2x32.Slices ![0, 0] S1x32
  shapeCasts_S1x32_S32 : S1x32.ShapeCasts S32
  slices_S2x32_S1x32_1_0 : S2x32.Slices ![1, 0] S1x32
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  transposes_S64x1_S1x64_1_0 : S64x1.Transposes [1, 0] S1x64
  shapeCasts_S64_S1x64 : S64.ShapeCasts S1x64
  shapeCasts_S1_S1x1 : S1.ShapeCasts S1x1
  inb_S4096x768_S4096x768_0_0 : ∀ a, (![0, 0] : Fin 2 → Nat) a + S4096x768.size a ≤ S4096x768.size a
  h_S4096x768 : 0 < S4096x768.numel
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S4096x64_S4096 : S4096x64.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  scatter_S768x64_S4915x2_S4915_n_01_01_1_wf : ScatterDims.WF S768x64 S4915x2 S4915 [] [0, 1] [0, 1] 1
  scatter_S64x64_S409x2_S409_n_01_01_1_wf : ScatterDims.WF S64x64 S409x2 S409 [] [0, 1] [0, 1] 1
  scatter_S64x1_S32x2_S32_n_01_01_1_wf : ScatterDims.WF S64x1 S32x2 S32 [] [0, 1] [0, 1] 1
  dot_S4096x768_S768x64_S4096x64_1_0_0_1_n_n_wf : DotDims.WF S4096x768 S768x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S131072x768.size a
  hwx0_0 : ∀ i : grid0.Coords, EltTy.bits .f32 = 32 ∨ (Rect.block (s := S131072x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .bf16 = 32 ∨ (Rect.block (s := S768x64) S768x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S131072x1.size a
  hwx0_7 : ∀ i : grid0.Coords, EltTy.bits .f32 = 32 ∨ (Rect.block (s := S131072x1) S4096x1.size (cc0_transform_7 i) (hinb0_7 i)).WholeWords (EltTy.packing .f32)

variable [Facts₀]

def scatter_S768x64_S4915x2_S4915_n_01_01_1 : ScatterDims S768x64 S4915x2 S4915 where
  updateWindowDims := []
  insertedWindowDims := [0, 1]
  scatterDimsToOperandDims := [0, 1]
  indexVectorDim := 1
  wf := scatter_S768x64_S4915x2_S4915_n_01_01_1_wf
def scatter_S64x64_S409x2_S409_n_01_01_1 : ScatterDims S64x64 S409x2 S409 where
  updateWindowDims := []
  insertedWindowDims := [0, 1]
  scatterDimsToOperandDims := [0, 1]
  indexVectorDim := 1
  wf := scatter_S64x64_S409x2_S409_n_01_01_1_wf
def scatter_S64x1_S32x2_S32_n_01_01_1 : ScatterDims S64x1 S32x2 S32 where
  updateWindowDims := []
  insertedWindowDims := [0, 1]
  scatterDimsToOperandDims := [0, 1]
  indexVectorDim := 1
  wf := scatter_S64x1_S32x2_S32_n_01_01_1_wf
def dot_S4096x768_S768x64_S4096x64_1_0_0_1_n_n : DotDims S4096x768 S768x64 S4096x64 where
  lhsContracting := [1]
  rhsContracting := [0]
  lhsNonContracting := [0]
  rhsNonContracting := [1]
  lhsBatch := []
  rhsBatch := []
  wf := dot_S4096x768_S768x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v62) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v63) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x768 : Shape := ⟨2, ![131072, 768]⟩
abbrev S2x4915 : Shape := ⟨2, ![2, 4915]⟩
abbrev S4915 : Shape := ⟨1, ![4915]⟩
abbrev S64 : Shape := ⟨1, ![64]⟩
abbrev S2x409 : Shape := ⟨2, ![2, 409]⟩
abbrev S409 : Shape := ⟨1, ![409]⟩
abbrev S2x32 : Shape := ⟨2, ![2, 32]⟩
abbrev S32 : Shape := ⟨1, ![32]⟩
abbrev S1 : Shape := ⟨1, ![1]⟩
abbrev S_ : Shape := ⟨0, ![]⟩
abbrev S768x64 : Shape := ⟨2, ![768, 64]⟩
abbrev S1x4915 : Shape := ⟨2, ![1, 4915]⟩
abbrev S4915x1 : Shape := ⟨2, ![4915, 1]⟩
abbrev S4915x2 : Shape := ⟨2, ![4915, 2]⟩
abbrev S64x64 : Shape := ⟨2, ![64, 64]⟩
abbrev S1x409 : Shape := ⟨2, ![1, 409]⟩
abbrev S409x1 : Shape := ⟨2, ![409, 1]⟩
abbrev S409x2 : Shape := ⟨2, ![409, 2]⟩
abbrev S64x1 : Shape := ⟨2, ![64, 1]⟩
abbrev S1x32 : Shape := ⟨2, ![1, 32]⟩
abbrev S32x1 : Shape := ⟨2, ![32, 1]⟩
abbrev S32x2 : Shape := ⟨2, ![32, 2]⟩
abbrev S131072x64 : Shape := ⟨2, ![131072, 64]⟩
abbrev S1x64 : Shape := ⟨2, ![1, 64]⟩
abbrev S131072x1 : Shape := ⟨2, ![131072, 1]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S131072x768, .f32⟩
  | .hbm, ⟨1, _⟩ => ⟨S2x4915, .i32⟩
  | .hbm, ⟨2, _⟩ => ⟨S4915, .f32⟩
  | .hbm, ⟨3, _⟩ => ⟨S64, .f32⟩
  | .hbm, ⟨4, _⟩ => ⟨S2x409, .i32⟩
  | .hbm, ⟨5, _⟩ => ⟨S409, .f32⟩
  | .hbm, ⟨6, _⟩ => ⟨S64, .f32⟩
  | .hbm, ⟨7, _⟩ => ⟨S2x32, .i32⟩
  | .hbm, ⟨8, _⟩ => ⟨S32, .f32⟩
  | .hbm, ⟨9, _⟩ => ⟨S1, .f32⟩
  | .hbm, ⟨10, _⟩ => ⟨S_, .f32⟩
  | .hbm, ⟨11, _⟩ => ⟨S768x64, .f32⟩
  | .hbm, ⟨12, _⟩ => ⟨S1x4915, .i32⟩
  | .hbm, ⟨13, _⟩ => ⟨S4915, .i32⟩
  | .hbm, ⟨14, _⟩ => ⟨S1x4915, .i32⟩
  | .hbm, ⟨15, _⟩ => ⟨S4915, .i32⟩
  | .hbm, ⟨16, _⟩ => ⟨S_, .i32⟩
  | .hbm, ⟨17, _⟩ => ⟨S4915, .i32⟩
  | .hbm, ⟨18, _⟩ => ⟨S4915, .i1⟩
  | .hbm, ⟨19, _⟩ => ⟨S_, .i32⟩
  | .hbm, ⟨20, _⟩ => ⟨S4915, .i32⟩
  | .hbm, ⟨21, _⟩ => ⟨S4915, .i32⟩
  | .hbm, ⟨22, _⟩ => ⟨S4915, .i32⟩
  | .hbm, ⟨23, _⟩ => ⟨S_, .i32⟩
  | .hbm, ⟨24, _⟩ => ⟨S4915, .i32⟩
  | .hbm, ⟨25, _⟩ => ⟨S4915, .i1⟩
  | .hbm, ⟨26, _⟩ => ⟨S_, .i32⟩
  | .hbm, ⟨27, _⟩ => ⟨S4915, .i32⟩
  | .hbm, ⟨28, _⟩ => ⟨S4915, .i32⟩
  | .hbm, ⟨29, _⟩ => ⟨S4915, .i32⟩
  | .hbm, ⟨30, _⟩ => ⟨S4915x1, .i32⟩
  | .hbm, ⟨31, _⟩ => ⟨S4915x1, .i32⟩
  | .hbm, ⟨32, _⟩ => ⟨S4915x2, .i32⟩
  | .hbm, ⟨33, _⟩ => ⟨S768x64, .f32⟩
  | .hbm, ⟨34, _⟩ => ⟨S_, .f32⟩
  | .hbm, ⟨35, _⟩ => ⟨S64x64, .f32⟩
  | .hbm, ⟨36, _⟩ => ⟨S1x409, .i32⟩
  | .hbm, ⟨37, _⟩ => ⟨S409, .i32⟩
  | .hbm, ⟨38, _⟩ => ⟨S1x409, .i32⟩
  | .hbm, ⟨39, _⟩ => ⟨S409, .i32⟩
  | .hbm, ⟨40, _⟩ => ⟨S_, .i32⟩
  | .hbm, ⟨41, _⟩ => ⟨S409, .i32⟩
  | .hbm, ⟨42, _⟩ => ⟨S409, .i1⟩
  | .hbm, ⟨43, _⟩ => ⟨S_, .i32⟩
  | .hbm, ⟨44, _⟩ => ⟨S409, .i32⟩
  | .hbm, ⟨45, _⟩ => ⟨S409, .i32⟩
  | .hbm, ⟨46, _⟩ => ⟨S409, .i32⟩
  | .hbm, ⟨47, _⟩ => ⟨S_, .i32⟩
  | .hbm, ⟨48, _⟩ => ⟨S409, .i32⟩
  | .hbm, ⟨49, _⟩ => ⟨S409, .i1⟩
  | .hbm, ⟨50, _⟩ => ⟨S_, .i32⟩
  | .hbm, ⟨51, _⟩ => ⟨S409, .i32⟩
  | .hbm, ⟨52, _⟩ => ⟨S409, .i32⟩
  | .hbm, ⟨53, _⟩ => ⟨S409, .i32⟩
  | .hbm, ⟨54, _⟩ => ⟨S409x1, .i32⟩
  | .hbm, ⟨55, _⟩ => ⟨S409x1, .i32⟩
  | .hbm, ⟨56, _⟩ => ⟨S409x2, .i32⟩
  | .hbm, ⟨57, _⟩ => ⟨S64x64, .f32⟩
  | .hbm, ⟨58, _⟩ => ⟨S_, .f32⟩
  | .hbm, ⟨59, _⟩ => ⟨S64x1, .f32⟩
  | .hbm, ⟨60, _⟩ => ⟨S1x32, .i32⟩
  | .hbm, ⟨61, _⟩ => ⟨S32, .i32⟩
  | .hbm, ⟨62, _⟩ => ⟨S1x32, .i32⟩
  | .hbm, ⟨63, _⟩ => ⟨S32, .i32⟩
  | .hbm, ⟨64, _⟩ => ⟨S_, .i32⟩
  | .hbm, ⟨65, _⟩ => ⟨S32, .i32⟩
  | .hbm, ⟨66, _⟩ => ⟨S32, .i1⟩
  | .hbm, ⟨67, _⟩ => ⟨S_, .i32⟩
  | .hbm, ⟨68, _⟩ => ⟨S32, .i32⟩
  | .hbm, ⟨69, _⟩ => ⟨S32, .i32⟩
  | .hbm, ⟨70, _⟩ => ⟨S32, .i32⟩
  | .hbm, ⟨71, _⟩ => ⟨S_, .i32⟩
  | .hbm, ⟨72, _⟩ => ⟨S32, .i32⟩
  | .hbm, ⟨73, _⟩ => ⟨S32, .i1⟩
  | .hbm, ⟨74, _⟩ => ⟨S_, .i32⟩
  | .hbm, ⟨75, _⟩ => ⟨S32, .i32⟩
  | .hbm, ⟨76, _⟩ => ⟨S32, .i32⟩
  | .hbm, ⟨77, _⟩ => ⟨S32, .i32⟩
  | .hbm, ⟨78, _⟩ => ⟨S32x1, .i32⟩
  | .hbm, ⟨79, _⟩ => ⟨S32x1, .i32⟩
  | .hbm, ⟨80, _⟩ => ⟨S32x2, .i32⟩
  | .hbm, ⟨81, _⟩ => ⟨S64x1, .f32⟩
  | .hbm, ⟨82, _⟩ => ⟨S131072x64, .f32⟩
  | .hbm, ⟨83, _⟩ => ⟨S1x64, .f32⟩
  | .hbm, ⟨84, _⟩ => ⟨S131072x64, .f32⟩
  | .hbm, ⟨85, _⟩ => ⟨S131072x64, .f32⟩
  | .hbm, ⟨86, _⟩ => ⟨S_, .f32⟩
  | .hbm, ⟨87, _⟩ => ⟨S131072x64, .f32⟩
  | .hbm, ⟨88, _⟩ => ⟨S131072x64, .f32⟩
  | .hbm, ⟨89, _⟩ => ⟨S131072x64, .f32⟩
  | .hbm, ⟨90, _⟩ => ⟨S1x64, .f32⟩
  | .hbm, ⟨91, _⟩ => ⟨S131072x64, .f32⟩
  | .hbm, ⟨92, _⟩ => ⟨S131072x64, .f32⟩
  | .hbm, ⟨93, _⟩ => ⟨S_, .f32⟩
  | .hbm, ⟨94, _⟩ => ⟨S131072x64, .f32⟩
  | .hbm, ⟨95, _⟩ => ⟨S131072x64, .f32⟩
  | .hbm, ⟨96, _⟩ => ⟨S131072x1, .f32⟩
  | .hbm, ⟨97, _⟩ => ⟨S1x1, .f32⟩
  | .hbm, ⟨98, _⟩ => ⟨S131072x1, .f32⟩
  | .hbm, ⟨99, _⟩ => ⟨S131072x1, .f32⟩
  | _, _ => ⟨S131072x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call0_cst : Ref sig .tc := ⟨.hbm, 86, rfl⟩
abbrev main_call0_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call1_cst : Ref sig .tc := ⟨.hbm, 93, rfl⟩
abbrev main_call1_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  bcast_S_S768x64 : S_.BroadcastsInDim S768x64 (![] : Fin 0 → Fin S768x64.rank)
  slices_S2x4915_S1x4915_0_0 : S2x4915.Slices ![0, 0] S1x4915
  shapeCasts_S1x4915_S4915 : S1x4915.ShapeCasts S4915
  slices_S2x4915_S1x4915_1_0 : S2x4915.Slices ![1, 0] S1x4915
  bcast_S_S4915 : S_.BroadcastsInDim S4915 (![] : Fin 0 → Fin S4915.rank)
  bcast_S4915_S4915x1_0 : S4915.BroadcastsInDim S4915x1 (![0] : Fin 1 → Fin S4915x1.rank)
  concatenates_S4915x1_S4915x1_S4915x2_d1 : Shape.Concatenates [S4915x1, S4915x1] S4915x2 1
  bcast_S_S64x64 : S_.BroadcastsInDim S64x64 (![] : Fin 0 → Fin S64x64.rank)
  slices_S2x409_S1x409_0_0 : S2x409.Slices ![0, 0] S1x409
  shapeCasts_S1x409_S409 : S1x409.ShapeCasts S409
  slices_S2x409_S1x409_1_0 : S2x409.Slices ![1, 0] S1x409
  bcast_S_S409 : S_.BroadcastsInDim S409 (![] : Fin 0 → Fin S409.rank)
  bcast_S409_S409x1_0 : S409.BroadcastsInDim S409x1 (![0] : Fin 1 → Fin S409x1.rank)
  concatenates_S409x1_S409x1_S409x2_d1 : Shape.Concatenates [S409x1, S409x1] S409x2 1
  bcast_S_S64x1 : S_.BroadcastsInDim S64x1 (![] : Fin 0 → Fin S64x1.rank)
  slices_S2x32_S1x32_0_0 : S2x32.Slices ![0, 0] S1x32
  shapeCasts_S1x32_S32 : S1x32.ShapeCasts S32
  slices_S2x32_S1x32_1_0 : S2x32.Slices ![1, 0] S1x32
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  scatter_S768x64_S4915x2_S4915_n_01_01_1_wf : ScatterDims.WF S768x64 S4915x2 S4915 [] [0, 1] [0, 1] 1
  scatter_S64x64_S409x2_S409_n_01_01_1_wf : ScatterDims.WF S64x64 S409x2 S409 [] [0, 1] [0, 1] 1
  scatter_S64x1_S32x2_S32_n_01_01_1_wf : ScatterDims.WF S64x1 S32x2 S32 [] [0, 1] [0, 1] 1
  dot_S131072x768_S768x64_S131072x64_1_0_0_1_n_n_wf : DotDims.WF S131072x768 S768x64 S131072x64 [1] [0] [0] [1] [] []
  dot_S131072x64_S64x64_S131072x64_1_0_0_1_n_n_wf : DotDims.WF S131072x64 S64x64 S131072x64 [1] [0] [0] [1] [] []
  dot_S131072x64_S64x1_S131072x1_1_0_0_1_n_n_wf : DotDims.WF S131072x64 S64x1 S131072x1 [1] [0] [0] [1] [] []

variable [Facts₀]

def scatter_S768x64_S4915x2_S4915_n_01_01_1 : ScatterDims S768x64 S4915x2 S4915 where
  updateWindowDims := []
  insertedWindowDims := [0, 1]
  scatterDimsToOperandDims := [0, 1]
  indexVectorDim := 1
  wf := scatter_S768x64_S4915x2_S4915_n_01_01_1_wf
def scatter_S64x64_S409x2_S409_n_01_01_1 : ScatterDims S64x64 S409x2 S409 where
  updateWindowDims := []
  insertedWindowDims := [0, 1]
  scatterDimsToOperandDims := [0, 1]
  indexVectorDim := 1
  wf := scatter_S64x64_S409x2_S409_n_01_01_1_wf
def scatter_S64x1_S32x2_S32_n_01_01_1 : ScatterDims S64x1 S32x2 S32 where
  updateWindowDims := []
  insertedWindowDims := [0, 1]
  scatterDimsToOperandDims := [0, 1]
  indexVectorDim := 1
  wf := scatter_S64x1_S32x2_S32_n_01_01_1_wf
def dot_S131072x768_S768x64_S131072x64_1_0_0_1_n_n : DotDims S131072x768 S768x64 S131072x64 where
  lhsContracting := [1]
  rhsContracting := [0]
  lhsNonContracting := [0]
  rhsNonContracting := [1]
  lhsBatch := []
  rhsBatch := []
  wf := dot_S131072x768_S768x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.LibDense.lean ====
/-
  A dense layer on the extended reals, for any extents, and the one fact a blocked computation of it needs.

  A layer takes a matrix `h` of `n` rows and `K` columns, a `K` × `M` matrix `wt` and a bias row `b` (stored as a
  1 × `M` matrix) and returns the `n` × `M` matrix whose entry (p, q) is the dot product of row p of `h` with column q of
  `wt`, plus `b` at q. The rectifier keeps the larger of an entry and zero. Nothing here depends on a program: a block of
  rows and the whole array are the same definition at two values of `n`, and the fact that joins them is that an entry
  of a layer depends on one row of `h`, one column of `wt` and one entry of `b` (`lin_congr`) — so a block of rows of the
  layer of an array is the layer of the same block of rows of the array.
-/
import Idealize.ShloMosaic.Lib.ValueIdx
import Idealize.ShloMosaic.PureOps.Ideal

noncomputable section

open scoped BigOperators

namespace Cert.Dense

open Idealize.ShloMosaic Idealize.ShloMosaic.ValueIdx

/-- One dense layer `h · wt + b`: entry (p, q) is `∑ k, h (p, k) · wt (k, q) + b (0, q)`, for an `n` × `K` matrix `h`, a
    `K` × `M` matrix `wt` and a bias row `b` stored as a 1 × `M` matrix. -/
def lin {n K M : Nat} (h : (⟨2, ![n, K]⟩ : Shape).Idx → EReal) (wt : (⟨2, ![K, M]⟩ : Shape).Idx → EReal)
    (b : (⟨2, ![1, M]⟩ : Shape).Idx → EReal) : (⟨2, ![n, M]⟩ : Shape).Idx → EReal :=
  fun i => (∑ k : Fin K, h (ix2 (i 0) k) * wt (ix2 k (i 1))) + b (ix2 (0 : Fin 1) (i 1))

/-- The rectifier of a matrix, entry by entry: the larger of the entry and zero. -/
def relu {n M : Nat} (x : (⟨2, ![n, M]⟩ : Shape).Idx → EReal) : (⟨2, ![n, M]⟩ : Shape).Idx → EReal :=
  fun i => max (x i) 0

/-- The layer at explicit coordinates. -/
theorem lin_apply {n K M : Nat} (h : (⟨2, ![n, K]⟩ : Shape).Idx → EReal) (wt : (⟨2, ![K, M]⟩ : Shape).Idx → EReal)
    (b : (⟨2, ![1, M]⟩ : Shape).Idx → EReal) (p : Fin n) (q : Fin M) :
    lin h wt b (ix2 p q) = (∑ k : Fin K, h (ix2 p k) * wt (ix2 k q)) + b (ix2 (0 : Fin 1) q) := rfl

/-- The rectifier at an index. -/
theorem relu_apply {n M : Nat} (x : (⟨2, ![n, M]⟩ : Shape).Idx → EReal) (i : (⟨2, ![n, M]⟩ : Shape).Idx) :
    relu x i = max (x i) 0 := rfl

/-- An entry of a layer depends on one row of `h`, one column of `wt` and one entry of `b`: two layers, of matrices
    with any numbers of rows, agree at entries `i'` and `i` as soon as row `i' 0` of one input is row `i 0` of the other,
    column `i' 1` of one weight matrix is column `i 1` of the other, and the bias entries agree. (A block of rows of
    the output is the layer of the same block of rows of the input.) -/
theorem lin_congr {n n' K M : Nat} (h : (⟨2, ![n, K]⟩ : Shape).Idx → EReal) (wt : (⟨2, ![K, M]⟩ : Shape).Idx → EReal)
    (b : (⟨2, ![1, M]⟩ : Shape).Idx → EReal) (h' : (⟨2, ![n', K]⟩ : Shape).Idx → EReal)
    (wt' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (hrow : ∀ k : Fin K, h' (ix2 (i' 0) k) = h (ix2 (i 0) k))
    (hcol : ∀ k : Fin K, wt' (ix2 k (i' 1)) = wt (ix2 k (i 1)))
    (hb : b' (ix2 (0 : Fin 1) (i' 1)) = b (ix2 (0 : Fin 1) (i 1))) :
    lin h' wt' b' i' = lin h wt b i := by
  unfold lin
  rw [hb]
  exact congrArg (· + b (ix2 (0 : Fin 1) (i 1))) (Finset.sum_congr rfl fun k _ => by rw [hrow k, hcol k])

end Cert.Dense

end
-- ==== Proof.Mlp.lean ====
/-
  The function both programs compute: a perceptron of three dense layers on the extended reals.

  For a matrix `x` of `n` rows and 768 columns, weight matrices `w1` (768 × 64), `w2` (64 × 64), `w3` (64 × 1) and bias
  rows `b1`, `b2` (1 × 64), `b3` (1 × 1), the result is the `n` × 1 column

      out (p, 0) = ∑ₖ h2 (p, k) · w3 (k, 0) + b3 (0, 0),
      h2 (p, k)  = max (∑ⱼ h1 (p, j) · w2 (j, k) + b2 (0, k)) 0,
      h1 (p, j)  = max (∑ᵢ x (p, i) · w1 (i, j) + b1 (0, j)) 0.

  It is stated for any number of rows, because the kernel computes it 4096 rows at a time: row `p` of the result depends
  on row `p` of `x` alone (`mlp_row`), so the perceptron of a block of rows is the same block of rows of the
  perceptron of the whole matrix. No law of arithmetic beyond that is used: both programs form the same sums of the same
  products in the same nesting, so nothing here asks the entries to be finite.
-/
import proofs.«167410_j27573690040595_2_alg».proof.Proof.LibDense

noncomputable section

open scoped BigOperators

namespace Cert.Mlp

open Idealize.ShloMosaic Idealize.ShloMosaic.ValueIdx Cert.Dense

/-- Three dense layers, the first two rectified. -/
def mlp {n : Nat} (x : (⟨2, ![n, 768]⟩ : Shape).Idx → EReal)
    (w1 : (⟨2, ![768, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (w3 : (⟨2, ![64, 1]⟩ : Shape).Idx → EReal) (b3 : (⟨2, ![1, 1]⟩ : Shape).Idx → EReal) :
    (⟨2, ![n, 1]⟩ : Shape).Idx → EReal :=
  lin (relu (lin (relu (lin x w1 b1)) w2 b2)) w3 b3

/-- Row `p'` of the perceptron of `x'` is row `p` of the perceptron of `x` as soon as row `p'` of `x'` is row `p` of `x`
    (same weights and biases; the two matrices may have different numbers of rows). -/
theorem mlp_row {n n' : Nat} (x : (⟨2, ![n, 768]⟩ : Shape).Idx → EReal) (x' : (⟨2, ![n', 768]⟩ : Shape).Idx → EReal)
    (w1 : (⟨2, ![768, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (w3 : (⟨2, ![64, 1]⟩ : Shape).Idx → EReal) (b3 : (⟨2, ![1, 1]⟩ : Shape).Idx → EReal)
    (p : Fin n) (p' : Fin n') (z z' : Fin 1) (hrow : ∀ i : Fin 768, x' (ix2 p' i) = x (ix2 p i)) :
    mlp x' w1 b1 w2 b2 w3 b3 (ix2 p' z') = mlp x w1 b1 w2 b2 w3 b3 (ix2 p z) := by
  obtain rfl : z' = z := Subsingleton.elim _ _
  unfold mlp
  refine lin_congr _ w3 b3 _ w3 b3 (ix2 p z') (ix2 p' z') (fun k => ?_) (fun _ => rfl) rfl
  show relu _ (ix2 p' k) = relu _ (ix2 p k)
  rw [relu_apply, relu_apply]
  refine congrArg (max · 0) ?_
  refine lin_congr _ w2 b2 _ w2 b2 (ix2 p k) (ix2 p' k) (fun j => ?_) (fun _ => rfl) rfl
  show relu _ (ix2 p' j) = relu _ (ix2 p j)
  rw [relu_apply, relu_apply]
  refine congrArg (max · 0) ?_
  exact lin_congr x w1 b1 x' w1 b1 (ix2 p j) (ix2 p' j) (fun i => hrow i) (fun _ => rfl) rfl

end Cert.Mlp

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibDenseOps.lean ====
/-
  A dense layer as vector operations spell it, read as the layer of `LibDense` — general in the extents.

  Two spellings occur. A layer with many output columns is a matrix product into a zero accumulator, plus the bias row
  spread over the rows, and the rectifier is the entrywise maximum with a splat zero: over the extended reals this is
  `relu (lin h w b)`. A layer with ONE output column is often computed without a matrix product: every row of `h` is
  multiplied entrywise by the weights laid out as a row, the products are summed along the row, the sums are recast as
  a column and the one bias entry is added; when the row of weights is the transpose of the column `w` this is
  `lin h w b` with one output column.
-/
import proofs.«167410_j27573690040595_2_alg».proof.Proof.LibDense
import proofs.«167410_j27573690040595_2_alg».proof.Proof.LibPlainDot
import proofs.«167410_j27573690040595_2_alg».proof.Proof.LibColumns
import Idealize.ShloMosaic.Lib.ValueLayout

noncomputable section

open scoped BigOperators

namespace Cert.DenseOps

open Idealize.ShloMosaic Idealize.ShloMosaic.ValueIdx Cert.Dense

/-- A matrix product into the zero accumulator, plus a bias row spread over the rows, then the maximum with zero, is
    the rectified layer: entry (p, q) is `max (∑ k, h (p, k) · w (k, q) + b (0, q)) 0`. The four coordinate facts and the
    contraction's one axis are what a program's literal dimension numbers decide. -/
theorem matmul_bias_relu_eq {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) φ₁) (w : FVec Ideal (⟨2, ![K, M]⟩ : Shape) φ₂)
    (b : FVec Ideal (⟨2, ![1, M]⟩ : Shape) .f32) (hb : (⟨2, ![1, M]⟩ : Shape).Broadcasts ⟨2, ![n, M]⟩) :
    maximumf (addf (FloatOps.matmul D prec h w (constant (⟨2, ![n, M]⟩ : Shape) .f32 0x00000000#32))
        (broadcastTo (⟨2, ![n, M]⟩ : Shape) b hb))
      (broadcast (⟨2, ![n, M]⟩ : Shape) (Scalar.ofBits (F := Ideal) .f32 0x00000000#32))
      = relu (lin h w b) := by
  funext i
  obtain ⟨p, q, rfl⟩ : ∃ (p : Fin n) (q : Fin M), i = ix2 p q := ⟨i 0, i 1, eq_ix2 i⟩
  rw [relu_apply, lin_apply, maximumf_apply, addf_apply, broadcast_apply,
    PlainDot.matmul_zero_apply D hr hs l0 l1 r0 r1 prec h w p q, broadcastTo_1b_ab_apply b hb p q]
  show max _ (Ideal.ofBits .f32 0x00000000#32) = _
  rw [Ideal.ofBits_zero_f32]

/-- A layer with one output column computed on the vector unit: the rows of `h` times the weights laid out as a row
    `wrow`, summed along each row, recast as a column, plus the one bias entry. With `wrow (0, k) = w (k, 0)` it is
    `lin h w b`: entry (p, 0) is `∑ k, h (p, k) · w (k, 0) + b (0, 0)`. -/
theorem mulrow_sum_bias_eq {n K : Nat} (h : FVec Ideal (⟨2, ![n, K]⟩ : Shape) .f32)
    (wrow : FVec Ideal (⟨2, ![1, K]⟩ : Shape) .f32) (b : FVec Ideal (⟨2, ![1, 1]⟩ : Shape) .f32)
    (w : (⟨2, ![K, 1]⟩ : Shape).Idx → EReal)
    (hw : ∀ k : Fin K, wrow (ix2 (0 : Fin 1) k) = w (ix2 k (0 : Fin 1)))
    (hbk : (⟨2, ![1, K]⟩ : Shape).Broadcasts ⟨2, ![n, K]⟩) (acc : BitVec (FTy.f32).bits)
    (hred : (⟨2, ![n, K]⟩ : Shape).Reduces [1] ⟨1, ![n]⟩) (hφ : FKind.Formats .f32) (hacc : acc = FKind.add.neutral .f32 hφ)
    (hsc : (⟨1, ![n]⟩ : Shape).ShapeCasts ⟨2, ![n, 1]⟩) (hb : (⟨2, ![1, 1]⟩ : Shape).Broadcasts ⟨2, ![n, 1]⟩) :
    addf (shapeCast (⟨2, ![n, 1]⟩ : Shape)
          (multiReduction .add [1] (⟨1, ![n]⟩ : Shape) (mulf h (broadcastTo (⟨2, ![n, K]⟩ : Shape) wrow hbk)) acc hred hφ hacc) hsc)
        (broadcastTo (⟨2, ![n, 1]⟩ : Shape) b hb)
      = lin h w b := by
  funext i
  obtain ⟨p, z, rfl⟩ : ∃ (p : Fin n) (z : Fin 1), i = ix2 p z := ⟨i 0, i 1, eq_ix2 i⟩
  obtain rfl : z = 0 := Subsingleton.elim _ _
  rw [lin_apply, addf_apply, LibColumns.shapeCast_a_a1_apply _ hsc p 0,
    LibColumns.rowSum_apply _ acc hred hφ hacc p, broadcastTo_1b_ab_apply b hb p 0]
  refine congrArg (· + b (ix2 (0 : Fin 1) (0 : Fin 1))) (Finset.sum_congr rfl fun k _ => ?_)
  rw [mulf_apply, broadcastTo_1b_ab_apply wrow hbk p k, hw k]

end Cert.DenseOps

end
-- ==== Proof.KernelBody.lean ====
/-
  What the kernel's body stores, as the perceptron of the blocks it loads.

  The body loads a block of 4096 rows of the input, the two weight matrices (rounded to a shorter float format, which
  on the extended reals is no change), the two bias rows, the last layer's weights laid out as a row, and the last bias
  entry. It forms the first two layers as matrix products into a zero accumulator plus the bias row, each followed by
  the maximum with zero, and the last layer as the rows times the weight row summed along each row, recast as a column,
  plus the bias. Over the extended reals that is `mlp` of the loaded blocks, with the 64 × 1 weight column whose
  transpose the loaded row is.
-/
import proofs.«167410_j27573690040595_2_alg».proof.Proof.Gen.KernelIdeal.Skeleton
import proofs.«167410_j27573690040595_2_alg».proof.Proof.Mlp
import proofs.«167410_j27573690040595_2_alg».proof.Proof.LibDenseOps

noncomputable section

open scoped BigOperators

namespace Cert.KernelIdeal.Body

open Cert.KernelIdeal Cert.KernelIdeal.Gen Idealize.ShloMosaic Idealize.ShloMosaic.ValueIdx Cert.Dense Cert.Mlp

/-! ## The two matrix products' dimension numbers: rows of the left operand against columns of the right -/

theorem dotA_l0 (i : S4096x64.Idx) (q : dot_S4096x768_S768x64_S4096x64_1_0_0_1_n_n.contr.Idx) :
    (dot_S4096x768_S768x64_S4096x64_1_0_0_1_n_n.lhsIdx i q 0).val = (i 0).val := by
  unfold DotDims.lhsIdx
  rw [dif_neg (show ¬(0 : Fin S4096x768.rank) ∈ dot_S4096x768_S768x64_S4096x64_1_0_0_1_n_n.lhsBatch by decide),
    dif_pos (show (0 : Fin S4096x768.rank) ∈ dot_S4096x768_S768x64_S4096x64_1_0_0_1_n_n.lhsNonContracting by decide)]
  rfl
theorem dotA_l1 (i : S4096x64.Idx) (q : dot_S4096x768_S768x64_S4096x64_1_0_0_1_n_n.contr.Idx) :
    (dot_S4096x768_S768x64_S4096x64_1_0_0_1_n_n.lhsIdx i q 1).val = (q ⟨0, by decide⟩).val :=
  dot_S4096x768_S768x64_S4096x64_1_0_0_1_n_n.lhsIdx_val_of_single rfl i q
theorem dotA_r0 (i : S4096x64.Idx) (q : dot_S4096x768_S768x64_S4096x64_1_0_0_1_n_n.contr.Idx) :
    (dot_S4096x768_S768x64_S4096x64_1_0_0_1_n_n.rhsIdx i q 0).val = (q ⟨0, by decide⟩).val :=
  dot_S4096x768_S768x64_S4096x64_1_0_0_1_n_n.rhsIdx_val_of_single rfl i q
theorem dotA_r1 (i : S4096x64.Idx) (q : dot_S4096x768_S768x64_S4096x64_1_0_0_1_n_n.contr.Idx) :
    (dot_S4096x768_S768x64_S4096x64_1_0_0_1_n_n.rhsIdx i q 1).val = (i 1).val := by
  unfold DotDims.rhsIdx
  rw [dif_neg (show ¬(1 : Fin S768x64.rank) ∈ dot_S4096x768_S768x64_S4096x64_1_0_0_1_n_n.rhsBatch by decide),
    dif_pos (show (1 : Fin S768x64.rank) ∈ dot_S4096x768_S768x64_S4096x64_1_0_0_1_n_n.rhsNonContracting by decide)]
  rfl

theorem dotB_l0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
theorem dotB_l1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem dotB_r0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem dotB_r1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-! ## The stored value -/

/-- The body's one stored value is the perceptron of its loaded blocks: `w3` is any 64 × 1 column whose transpose is
    the loaded weight row `x5`. -/
theorem pay_eq (x0 : Vec Ideal S4096x768 .f32) (x1 : Vec Ideal S768x64 .bf16) (x2 : Vec Ideal S1x64 .f32)
    (x3 : Vec Ideal S64x64 .bf16) (x4 : Vec Ideal S1x64 .f32) (x5 : Vec Ideal S1x64 .f32) (x6 : Vec Ideal S1x1 .f32)
    (w3 : S64x1.Idx → EReal) (hw3 : ∀ k : Fin 64, x5 (ix2 (0 : Fin 1) k) = w3 (ix2 k (0 : Fin 1))) :
    k0_pay1 (F := Ideal) x0 x1 x2 x3 x4 x5 x6 = mlp x0 x1 x2 x3 x4 w3 x6 := by
  unfold k0_pay1 mlp
  simp only [shapeCast_self]
  rw [DenseOps.matmul_bias_relu_eq dot_S4096x768_S768x64_S4096x64_1_0_0_1_n_n rfl rfl dotA_l0 dotA_l1 dotA_r0 dotA_r1 none
      (truncf .bf16 x0 bitsLt_bf16_f32) x1 x2 broadcasts_S1x64_S4096x64]
  have e2 := DenseOps.matmul_bias_relu_eq (n := 4096) (K := 64) (M := 64) (φ₁ := .bf16) (φ₂ := .bf16)
      dot_S4096x64_S64x64_S4096x64_1_0_0_1_n_n rfl rfl dotB_l0 dotB_l1 dotB_r0 dotB_r1 none
      (truncf (F := Ideal) (s := S4096x64) (φ := .f32) .bf16
        (relu (lin (n := 4096) (K := 768) (M := 64) (truncf (F := Ideal) (s := S4096x768) (φ := .f32) .bf16 x0 bitsLt_bf16_f32) x1 x2))
        bitsLt_bf16_f32)
      x3 x4 broadcasts_S1x64_S4096x64
  rw [e2]
  exact DenseOps.mulrow_sum_bias_eq _ x5 x6 w3 hw3 broadcasts_S1x64_S4096x64 _ reduces_S4096x64_S4096 _ _
    shapeCasts_S4096_S4096x1 broadcasts_S1x1_S4096x1

end Cert.KernelIdeal.Body

end
-- ==== Proof.Entry.lean ====
/-
  What the kernel's windows find in their arrays when the region is entered.

  Before the region the kernel's program runs the same densifying scatter-adds as the reference, rounds two of the
  three weight matrices to a shorter float format (no change on the extended reals), transposes the third (a 64 × 1
  column) into a row, and recasts each bias vector as a one-row matrix. So the six small arrays the region reads are the
  reference's own stages: the densified matrices are the same terms of the arguments (they are matched as whole terms,
  the scatter-add never opened), a bias vector recast as one row reads like the reference's broadcast of it into one
  row, and the weight row at (0, k) is the reference's weight column at (k, 0).
-/
import proofs.«167410_j27573690040595_2_alg».proof.Proof.Gen.KernelIdeal.Frame
import proofs.«167410_j27573690040595_2_alg».proof.Proof.Gen.ReferenceIdeal.Read
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first weight matrix: the reference's densified 768 × 64 matrix. -/
theorem entry_w1 (c : Dev nD) : (V m c main_v19 : S768x64.Idx → EReal)
    = Cert.ReferenceIdeal.Read.val_main_v18 (F := Ideal) (m ((c : Thread nD τ).loc main_arg1)) (m ((c : Thread nD τ).loc main_arg2)) := by
  dsimp only [Gen.V, Gen.hostOps0]
  after_results_simp
  rfl

/-- The second weight matrix: the reference's densified 64 × 64 matrix. -/
theorem entry_w2 (c : Dev nD) : (V m c main_v39 : S64x64.Idx → EReal)
    = Cert.ReferenceIdeal.Read.val_main_v37 (F := Ideal) (m ((c : Thread nD τ).loc main_arg4)) (m ((c : Thread nD τ).loc main_arg5)) := by
  dsimp only [Gen.V, Gen.hostOps0]
  after_results_simp
  rfl

/-- The third layer's weights as a row: at (0, k) the reference's densified 64 × 1 column at (k, 0). -/
theorem entry_w3 (c : Dev nD) (k : Fin 64) : (V m c main_v59 : S1x64.Idx → EReal) (ix2 (0 : Fin 1) k)
    = Cert.ReferenceIdeal.Read.val_main_v56 (F := Ideal) (m ((c : Thread nD τ).loc main_arg7)) (m ((c : Thread nD τ).loc main_arg8)) (ix2 k (0 : Fin 1)) := by
  have e : (V m c main_v59 : S1x64.Idx → EReal)
      = transpose S1x64 [1, 0] (Cert.ReferenceIdeal.Read.val_main_v56 (F := Ideal) (m ((c : Thread nD τ).loc main_arg7)) (m ((c : Thread nD τ).loc main_arg8)))
          transposes_S64x1_S1x64_1_0 := by
    dsimp only [Gen.V, Gen.hostOps0]
    after_results_simp
    rfl
  rw [e]
  exact transpose_ix2_apply _ _ (0 : Fin 1) k

/-- A vector recast as a one-row matrix reads, at (u, q), the vector at q — like the reference's broadcast of the
    vector into one row. -/
theorem entry_b1 (c : Dev nD) : (V m c main_v60 : S1x64.Idx → EReal)
    = Cert.ReferenceIdeal.Read.val_main_v58 (F := Ideal) (m ((c : Thread nD τ).loc main_arg3)) := by
  have e : (V m c main_v60 : S1x64.Idx → EReal) = shapeCast S1x64 (m ((c : Thread nD τ).loc main_arg3)) shapeCasts_S64_S1x64 := by
    dsimp only [Gen.V, Gen.hostOps0]
    after_results_simp
    rfl
  rw [e]
  funext i
  obtain ⟨u, q, rfl⟩ : ∃ (u : Fin 1) (q : Fin 64), i = ix2 u q := ⟨i 0, i 1, eq_ix2 i⟩
  rw [Cert.ReferenceIdeal.Read.val_main_v58_apply]
  refine (shapeCast_a_1a_apply _ _ u q).trans (congrArg _ (funext fun a => ?_))
  match a with
  | ⟨0, _⟩ => rfl

theorem entry_b2 (c : Dev nD) : (V m c main_v61 : S1x64.Idx → EReal)
    = Cert.ReferenceIdeal.Read.val_main_v63 (F := Ideal) (m ((c : Thread nD τ).loc main_arg6)) := by
  have e : (V m c main_v61 : S1x64.Idx → EReal) = shapeCast S1x64 (m ((c : Thread nD τ).loc main_arg6)) shapeCasts_S64_S1x64 := by
    dsimp only [Gen.V, Gen.hostOps0]
    after_results_simp
    rfl
  rw [e]
  funext i
  obtain ⟨u, q, rfl⟩ : ∃ (u : Fin 1) (q : Fin 64), i = ix2 u q := ⟨i 0, i 1, eq_ix2 i⟩
  rw [Cert.ReferenceIdeal.Read.val_main_v63_apply]
  refine (shapeCast_a_1a_apply _ _ u q).trans (congrArg _ (funext fun a => ?_))
  match a with
  | ⟨0, _⟩ => rfl

theorem entry_b3 (c : Dev nD) : (V m c main_v62 : S1x1.Idx → EReal)
    = Cert.ReferenceIdeal.Read.val_main_v68 (F := Ideal) (m ((c : Thread nD τ).loc main_arg9)) := by
  have e : (V m c main_v62 : S1x1.Idx → EReal) = shapeCast S1x1 (m ((c : Thread nD τ).loc main_arg9)) shapeCasts_S1_S1x1 := by
    dsimp only [Gen.V, Gen.hostOps0]
    after_results_simp
    rfl
  rw [e]
  funext i
  obtain ⟨u, q, rfl⟩ : ∃ (u : Fin 1) (q : Fin 1), i = ix2 u q := ⟨i 0, i 1, eq_ix2 i⟩
  rw [Cert.ReferenceIdeal.Read.val_main_v68_apply]
  refine (shapeCast_a_1a_apply _ _ u q).trans (congrArg _ (funext fun a => ?_))
  match a with
  | ⟨0, _⟩ => exact Fin.ext (by have := q.isLt; show q.val = 0; omega)

end Cert.KernelIdeal.Entry

end
-- ==== Proof.KernelValue.lean ====
/-
  The kernel's result array, whole: the perceptron of the argument arrays.

  The grid has 32 points. Point `t` reads rows 4096·t … 4096·t + 4095 of the input (all 768 columns) and the six small
  arrays whole, and writes rows 4096·t … 4096·t + 4095 of the one-column result. What it writes is the perceptron of
  its block of rows (the body's stored value), and a row of the perceptron depends on the same row of the input alone,
  so the written block is the same block of rows of the perceptron of the whole input. The 32 blocks of 4096 rows
  cover the 131072 rows — row `r` lies in the block of point `r / 4096` — so the array ends as that perceptron
  everywhere. The weights and biases are named by the reference's stages, which the region's small arrays hold.
-/
import proofs.«167410_j27573690040595_2_alg».proof.Proof.Gen.KernelIdeal.Value
import proofs.«167410_j27573690040595_2_alg».proof.Proof.KernelBody
import proofs.«167410_j27573690040595_2_alg».proof.Proof.Entry

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- The perceptron of the argument arrays as launched: the input, and the reference's densified weight matrices and
    one-row biases of the other nine arguments. -/
def result (c : Dev nD) : S131072x1.Idx → EReal :=
  mlp (n := 131072) (m ((c : Thread nD τ).loc main_arg0))
    (Cert.ReferenceIdeal.Read.val_main_v18 (F := Ideal) (m ((c : Thread nD τ).loc main_arg1)) (m ((c : Thread nD τ).loc main_arg2)))
    (Cert.ReferenceIdeal.Read.val_main_v58 (F := Ideal) (m ((c : Thread nD τ).loc main_arg3)))
    (Cert.ReferenceIdeal.Read.val_main_v37 (F := Ideal) (m ((c : Thread nD τ).loc main_arg4)) (m ((c : Thread nD τ).loc main_arg5)))
    (Cert.ReferenceIdeal.Read.val_main_v63 (F := Ideal) (m ((c : Thread nD τ).loc main_arg6)))
    (Cert.ReferenceIdeal.Read.val_main_v56 (F := Ideal) (m ((c : Thread nD τ).loc main_arg7)) (m ((c : Thread nD τ).loc main_arg8)))
    (Cert.ReferenceIdeal.Read.val_main_v68 (F := Ideal) (m ((c : Thread nD τ).loc main_arg9)))

theorem hz : (![0, 0] : Fin 2 → Nat) = fun _ => 0 := funext fun a => by fin_cases a <;> rfl

/-- The printed index maps, decided over the 32 points: the input's and the result's blocks are numbered by the point
    along the rows; every other window stays on its one block. -/
theorem idx_facts : ∀ t : Fin cfg0.N, win0_0.index t (0 : Fin 2) = t.val
    ∧ win0_0.index t (1 : Fin 2) = 0
    ∧ win0_7.index t (0 : Fin 2) = t.val
    ∧ win0_7.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

/-! ## The blocks the body loads -/

/-- The input's block at point `t` is rows 4096·t … of the input as launched. -/
theorem iblk0_apply (c : Dev nD) (t : Fin cfg0.N) (y : S4096x768.Idx) (k : S131072x768.Idx)
    (hk0 : (k 0).val = t.val * 4096 + (y 0).val) (hk1 : (k 1).val = (y 1).val) :
    (iblk m c 0 t : Vec Ideal S4096x768 .f32) y = ((m ((c : Thread nD τ).loc main_arg0)) : S131072x768.Idx → EReal) k := by
  obtain ⟨e00, e01, e70, e71, e10, e11, e20, e21, e30, e31, e40, e41, e50, e51, e60, e61⟩ := idx_facts t
  refine Eq.trans ?_ (congrFun (V_main_arg0 m c) k)
  unfold iblk
  rw [View.read_apply]
  show (V m c main_arg0 : S131072x768.Idx → EReal) _ = _
  refine congrArg (V m c main_arg0 : S131072x768.Idx → EReal) (funext fun a => Fin.ext ?_)
  match a with
  | ⟨0, _⟩ => show win0_0.index t (0 : Fin 2) * 4096 + 1 * (y 0).val = (k 0).val; rw [e00, hk0]; omega
  | ⟨1, _⟩ => show win0_0.index t (1 : Fin 2) * 768 + 1 * (y 1).val = (k 1).val; rw [e01, hk1]; omega

/-- Window 1's one block is its whole array. -/
theorem iblk1_eq (c : Dev nD) (t : Fin cfg0.N) :
    (iblk m c 1 t : Vec Ideal S768x64 .bf16) = (V m c main_v19 : S768x64.Idx → EReal) := by
  obtain ⟨e00, e01, e70, e71, e10, e11, e20, e21, e30, e31, e40, e41, e50, e51, e60, e61⟩ := idx_facts t
  funext y
  unfold iblk
  rw [View.read_apply]
  show (V m c main_v19 : S768x64.Idx → EReal) _ = _
  refine congrArg (V m c main_v19 : S768x64.Idx → EReal) (funext fun a => Fin.ext ?_)
  match a with
  | ⟨0, _⟩ => show win0_1.index t (0 : Fin 2) * 768 + 1 * (y 0).val = (y 0).val; rw [e10]; omega
  | ⟨1, _⟩ => show win0_1.index t (1 : Fin 2) * 64 + 1 * (y 1).val = (y 1).val; rw [e11]; omega

/-- Window 2's one block is its whole array. -/
theorem iblk2_eq (c : Dev nD) (t : Fin cfg0.N) :
    (iblk m c 2 t : Vec Ideal S1x64 .f32) = (V m c main_v60 : S1x64.Idx → EReal) := by
  obtain ⟨e00, e01, e70, e71, e10, e11, e20, e21, e30, e31, e40, e41, e50, e51, e60, e61⟩ := idx_facts t
  funext y
  unfold iblk
  rw [View.read_apply]
  show (V m c main_v60 : S1x64.Idx → EReal) _ = _
  refine congrArg (V m c main_v60 : S1x64.Idx → EReal) (funext fun a => Fin.ext ?_)
  match a with
  | ⟨0, _⟩ => show win0_2.index t (0 : Fin 2) * 1 + 1 * (y 0).val = (y 0).val; rw [e20]; omega
  | ⟨1, _⟩ => show win0_2.index t (1 : Fin 2) * 64 + 1 * (y 1).val = (y 1).val; rw [e21]; omega

/-- Window 3's one block is its whole array. -/
theorem iblk3_eq (c : Dev nD) (t : Fin cfg0.N) :
    (iblk m c 3 t : Vec Ideal S64x64 .bf16) = (V m c main_v39 : S64x64.Idx → EReal) := by
  obtain ⟨e00, e01, e70, e71, e10, e11, e20, e21, e30, e31, e40, e41, e50, e51, e60, e61⟩ := idx_facts t
  funext y
  unfold iblk
  rw [View.read_apply]
  show (V m c main_v39 : S64x64.Idx → EReal) _ = _
  refine congrArg (V m c main_v39 : S64x64.Idx → EReal) (funext fun a => Fin.ext ?_)
  match a with
  | ⟨0, _⟩ => show win0_3.index t (0 : Fin 2) * 64 + 1 * (y 0).val = (y 0).val; rw [e30]; omega
  | ⟨1, _⟩ => show win0_3.index t (1 : Fin 2) * 64 + 1 * (y 1).val = (y 1).val; rw [e31]; omega

/-- Window 4's one block is its whole array. -/
theorem iblk4_eq (c : Dev nD) (t : Fin cfg0.N) :
    (iblk m c 4 t : Vec Ideal S1x64 .f32) = (V m c main_v61 : S1x64.Idx → EReal) := by
  obtain ⟨e00, e01, e70, e71, e10, e11, e20, e21, e30, e31, e40, e41, e50, e51, e60, e61⟩ := idx_facts t
  funext y
  unfold iblk
  rw [View.read_apply]
  show (V m c main_v61 : S1x64.Idx → EReal) _ = _
  refine congrArg (V m c main_v61 : S1x64.Idx → EReal) (funext fun a => Fin.ext ?_)
  match a with
  | ⟨0, _⟩ => show win0_4.index t (0 : Fin 2) * 1 + 1 * (y 0).val = (y 0).val; rw [e40]; omega
  | ⟨1, _⟩ => show win0_4.index t (1 : Fin 2) * 64 + 1 * (y 1).val = (y 1).val; rw [e41]; omega

/-- Window 5's one block is its whole array. -/
theorem iblk5_eq (c : Dev nD) (t : Fin cfg0.N) :
    (iblk m c 5 t : Vec Ideal S1x64 .f32) = (V m c main_v59 : S1x64.Idx → EReal) := by
  obtain ⟨e00, e01, e70, e71, e10, e11, e20, e21, e30, e31, e40, e41, e50, e51, e60, e61⟩ := idx_facts t
  funext y
  unfold iblk
  rw [View.read_apply]
  show (V m c main_v59 : S1x64.Idx → EReal) _ = _
  refine congrArg (V m c main_v59 : S1x64.Idx → EReal) (funext fun a => Fin.ext ?_)
  match a with
  | ⟨0, _⟩ => show win0_5.index t (0 : Fin 2) * 1 + 1 * (y 0).val = (y 0).val; rw [e50]; omega
  | ⟨1, _⟩ => show win0_5.index t (1 : Fin 2) * 64 + 1 * (y 1).val = (y 1).val; rw [e51]; omega

/-- Window 6's one block is its whole array. -/
theorem iblk6_eq (c : Dev nD) (t : Fin cfg0.N) :
    (iblk m c 6 t : Vec Ideal S1x1 .f32) = (V m c main_v62 : S1x1.Idx → EReal) := by
  obtain ⟨e00, e01, e70, e71, e10, e11, e20, e21, e30, e31, e40, e41, e50, e51, e60, e61⟩ := idx_facts t
  funext y
  unfold iblk
  rw [View.read_apply]
  show (V m c main_v62 : S1x1.Idx → EReal) _ = _
  refine congrArg (V m c main_v62 : S1x1.Idx → EReal) (funext fun a => Fin.ext ?_)
  match a with
  | ⟨0, _⟩ => show win0_6.index t (0 : Fin 2) * 1 + 1 * (y 0).val = (y 0).val; rw [e60]; omega
  | ⟨1, _⟩ => show win0_6.index t (1 : Fin 2) * 1 + 1 * (y 1).val = (y 1).val; rw [e61]; omega

/-! ## What a point writes back -/

/-- The perceptron of a block of rows, with weights and biases equal to the whole computation's, is that block of rows
    of the perceptron of the whole input: entry `y` of the block's is entry `k` of the whole's when `k` is row
    `4096·tv + y`. -/
theorem block_row (X : S131072x768.Idx → EReal) (xb : S4096x768.Idx → EReal)
    (w1 w1' : S768x64.Idx → EReal) (b1 b1' : S1x64.Idx → EReal) (w2 w2' : S64x64.Idx → EReal) (b2 b2' : S1x64.Idx → EReal)
    (w3 : S64x1.Idx → EReal) (b3 b3' : S1x1.Idx → EReal)
    (hw1 : w1' = w1) (hb1 : b1' = b1) (hw2 : w2' = w2) (hb2 : b2' = b2) (hb3 : b3' = b3) (tv : Nat)
    (hx : ∀ (y : S4096x768.Idx) (k : S131072x768.Idx), (k 0).val = tv * 4096 + (y 0).val → (k 1).val = (y 1).val → xb y = X k)
    (y : S4096x1.Idx) (k : S131072x1.Idx) (hk0 : (k 0).val = tv * 4096 + (y 0).val) :
    mlp (n := 4096) xb w1' b1' w2' b2' w3 b3' y = mlp (n := 131072) X w1 b1 w2 b2 w3 b3 k := by
  subst hw1 hb1 hw2 hb2 hb3
  obtain ⟨p, z, rfl⟩ : ∃ (p : Fin 4096) (z : Fin 1), y = ix2 p z := ⟨y 0, y 1, eq_ix2 y⟩
  obtain ⟨r, z', rfl⟩ : ∃ (r : Fin 131072) (z' : Fin 1), k = ix2 r z' := ⟨k 0, k 1, eq_ix2 k⟩
  exact mlp_row X xb w1' b1' w2' b2' w3 b3' r p z' z (fun i => hx (ix2 p i) (ix2 r i) hk0 rfl)

/-- WHAT POINT `t` WRITES BACK is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S4096x768) hz, View.ld_unit_zero (S := S768x64) hz, View.ld_unit_zero (S := S1x64) hz,
    View.ld_unit_zero (S := S64x64) hz, View.ld_unit_zero (S := S1x1) hz]
  obtain ⟨e00, e01, e70, e71, e10, e11, e20, e21, e30, e31, e40, e41, e50, e51, e60, e61⟩ := idx_facts t
  funext y
  show k0_pay1 (F := Ideal) (iblk m c 0 t) (iblk m c 1 t) (iblk m c 2 t) (iblk m c 3 t) (iblk m c 4 t) (iblk m c 5 t) (iblk m c 6 t) y
    = result m c (((cfg0.win 7).blk t).view.emb y)
  refine (congrFun (Body.pay_eq (iblk m c 0 t) (iblk m c 1 t) (iblk m c 2 t) (iblk m c 3 t) (iblk m c 4 t) (iblk m c 5 t) (iblk m c 6 t)
    (Cert.ReferenceIdeal.Read.val_main_v56 (F := Ideal) (m ((c : Thread nD τ).loc main_arg7)) (m ((c : Thread nD τ).loc main_arg8)))
    (fun k => (congrFun (iblk5_eq m c t) (ix2 (0 : Fin 1) k)).trans (Entry.entry_w3 m c k))) y).trans ?_
  exact block_row (m ((c : Thread nD τ).loc main_arg0)) (iblk m c 0 t) _ (iblk m c 1 t) _ (iblk m c 2 t) _ (iblk m c 3 t) _ (iblk m c 4 t) _ _ (iblk m c 6 t)
    ((iblk1_eq m c t).trans (Entry.entry_w1 m c)) ((iblk2_eq m c t).trans (Entry.entry_b1 m c))
    ((iblk3_eq m c t).trans (Entry.entry_w2 m c)) ((iblk4_eq m c t).trans (Entry.entry_b2 m c))
    ((iblk6_eq m c t).trans (Entry.entry_b3 m c)) t.val
    (fun y' k h0 h1 => iblk0_apply m c t y' k h0 h1) y (((cfg0.win 7).blk t).view.emb y)
    (by show win0_7.index t (0 : Fin 2) * 4096 + 1 * (y 0).val = t.val * 4096 + (y 0).val; rw [e70]; omega)

/-! ## The blocks cover the array -/

/-- An index of the result is in point `t`'s block iff each coordinate is in the block's range on its axis. -/
theorem mem_blk (t : Fin cfg0.N) (i : S131072x1.Idx) :
    i ∈ ((cfg0.win 7).blk t).view.set ↔ ∀ a : Fin 2, win0_7.index t a * S4096x1.size a ≤ (i a).val
      ∧ (i a).val < win0_7.index t a * S4096x1.size a + S4096x1.size a := by
  show i ∈ ((View.whole main_v63).slice (win0_7.rect t)).set ↔ _
  rw [View.set_slice_whole, Rect.mem_set_unit]
  exact Iff.rfl

/-- Row `r` of the result lies in the block of point `r / 4096`. -/
theorem cover (i : S131072x1.Idx) :
    ∃ t : Fin cfg0.N, (cfg0.win 7).flush t = true ∧ i ∈ ((cfg0.win 7).blk t).view.set := by
  have hi0 : (i 0).val < 131072 := (i 0).isLt
  have hi1 : (i 1).val < 1 := (i 1).isLt
  have hN : cfg0.N = 32 := N_0
  have ht : (i 0).val / 4096 < cfg0.N := by rw [hN]; omega
  obtain ⟨-, -, e70, e71, -⟩ := idx_facts ⟨(i 0).val / 4096, ht⟩
  refine ⟨⟨(i 0).val / 4096, ht⟩, flush0_7 _, ?_⟩
  rw [mem_blk]
  intro a
  match a with
  | ⟨0, _⟩ =>
    show win0_7.index ⟨(i 0).val / 4096, ht⟩ (0 : Fin 2) * 4096 ≤ (i 0).val
      ∧ (i 0).val < win0_7.index ⟨(i 0).val / 4096, ht⟩ (0 : Fin 2) * 4096 + 4096
    rw [e70]
    show (i 0).val / 4096 * 4096 ≤ (i 0).val ∧ (i 0).val < (i 0).val / 4096 * 4096 + 4096
    omega
  | ⟨1, _⟩ =>
    show win0_7.index ⟨(i 0).val / 4096, ht⟩ (1 : Fin 2) * 1 ≤ (i 1).val
      ∧ (i 1).val < win0_7.index ⟨(i 0).val / 4096, ht⟩ (1 : Fin 2) * 1 + 1
    rw [e71]
    omega

/-- THE ARRAY after the run is `result`. -/
theorem final (c : Dev nD) : (dats m 0 c).arrAt 7 cfg0.N = result m c :=
  (dats m 0 c).arrAt_eq_of_cover 7 (result m c) (fun t _ => flushed_eq m c t) cover

/-! ## The run, read -/

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c : Thread nD τ).loc main_v63) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefValue.lean ====
/-
  The reference's result, read as the perceptron of its arguments.

  The reference densifies the three weight matrices (a scatter-add into zeros, shared with the kernel's program and
  never opened here: the stages `val_main_v18`, `val_main_v37`, `val_main_v56`), lays each bias vector out as a one-row
  matrix (`val_main_v58`, `val_main_v63`, `val_main_v68`), and computes three dense layers as whole-array products
  with the bias row spread over all rows, the first two followed by the maximum with zero. Read entry by entry through
  the generated stage lemmas, each layer is `lin`, rectified or not, of the layer before: the result is `mlp`.
-/
import proofs.«167410_j27573690040595_2_alg».proof.Proof.Gen.ReferenceIdeal.Read
import proofs.«167410_j27573690040595_2_alg».proof.Proof.Mlp

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Dense Cert.Mlp

variable (x0 : (⟨S131072x768, .f32⟩ : BufTy).Contents (Elt Ideal)) (x1 : (⟨S2x4915, .i32⟩ : BufTy).Contents (Elt Ideal)) (x2 : (⟨S4915, .f32⟩ : BufTy).Contents (Elt Ideal))
  (x3 : (⟨S64, .f32⟩ : BufTy).Contents (Elt Ideal)) (x4 : (⟨S2x409, .i32⟩ : BufTy).Contents (Elt Ideal)) (x5 : (⟨S409, .f32⟩ : BufTy).Contents (Elt Ideal))
  (x6 : (⟨S64, .f32⟩ : BufTy).Contents (Elt Ideal)) (x7 : (⟨S2x32, .i32⟩ : BufTy).Contents (Elt Ideal)) (x8 : (⟨S32, .f32⟩ : BufTy).Contents (Elt Ideal))
  (x9 : (⟨S1, .f32⟩ : BufTy).Contents (Elt Ideal))

/-- The first hidden layer: `max (x · W1 + b1) 0`. -/
theorem layer1 : val_main_v61 (F := Ideal) x0 x1 x2 x3
    = relu (lin (n := 131072) (K := 768) (M := 64) x0 (val_main_v18 (F := Ideal) x1 x2) (val_main_v58 (F := Ideal) x3)) := by
  funext i
  obtain ⟨p, q, rfl⟩ : ∃ (p : Fin 131072) (q : Fin 64), i = ix2 p q := ⟨i 0, i 1, eq_ix2 i⟩
  rw [relu_apply, lin_apply, val_main_v61_apply, val_main_v60_apply, val_main_v57_apply, val_main_v59_apply,
    val_main_call0_v0_apply, val_main_call0_cst_apply]
  show max ((∑ k : Fin 768, x0 (lidx_main_v57 (ix2 p q) k) * val_main_v18 (F := Ideal) x1 x2 (ridx_main_v57 (ix2 p q) k))
      + val_main_v58 (F := Ideal) x3 (idx_main_v59 (ix2 p q))) (Ideal.ofBits .f32 0x00000000#32) = _
  rw [Ideal.ofBits_zero_f32]
  have hl : ∀ k : Fin 768, lidx_main_v57 (ix2 p q) k = ix2 p k := fun k => funext fun a => Fin.ext (by match a with | ⟨0, _⟩ => rfl | ⟨1, _⟩ => rfl)
  have hr : ∀ k : Fin 768, ridx_main_v57 (ix2 p q) k = ix2 k q := fun k => funext fun a => Fin.ext (by match a with | ⟨0, _⟩ => rfl | ⟨1, _⟩ => rfl)
  have hb : idx_main_v59 (ix2 p q) = ix2 (0 : Fin 1) q := funext fun a => Fin.ext (by match a with | ⟨0, _⟩ => rfl | ⟨1, _⟩ => rfl)
  simp only [hl, hr, hb]

/-- The second hidden layer: `max (h1 · W2 + b2) 0`. -/
theorem layer2 : val_main_v66 (F := Ideal) x0 x1 x2 x3 x4 x5 x6
    = relu (lin (n := 131072) (K := 64) (M := 64) (val_main_v61 (F := Ideal) x0 x1 x2 x3) (val_main_v37 (F := Ideal) x4 x5)
        (val_main_v63 (F := Ideal) x6)) := by
  funext i
  obtain ⟨p, q, rfl⟩ : ∃ (p : Fin 131072) (q : Fin 64), i = ix2 p q := ⟨i 0, i 1, eq_ix2 i⟩
  rw [relu_apply, lin_apply, val_main_v66_apply, val_main_v65_apply, val_main_v62_apply, val_main_v64_apply,
    val_main_call1_v0_apply, val_main_call1_cst_apply]
  show max ((∑ k : Fin 64, val_main_v61 (F := Ideal) x0 x1 x2 x3 (lidx_main_v62 (ix2 p q) k)
        * val_main_v37 (F := Ideal) x4 x5 (ridx_main_v62 (ix2 p q) k))
      + val_main_v63 (F := Ideal) x6 (idx_main_v64 (ix2 p q))) (Ideal.ofBits .f32 0x00000000#32) = _
  rw [Ideal.ofBits_zero_f32]
  have hl : ∀ k : Fin 64, lidx_main_v62 (ix2 p q) k = ix2 p k := fun k => funext fun a => Fin.ext (by match a with | ⟨0, _⟩ => rfl | ⟨1, _⟩ => rfl)
  have hr : ∀ k : Fin 64, ridx_main_v62 (ix2 p q) k = ix2 k q := fun k => funext fun a => Fin.ext (by match a with | ⟨0, _⟩ => rfl | ⟨1, _⟩ => rfl)
  have hb : idx_main_v64 (ix2 p q) = ix2 (0 : Fin 1) q := funext fun a => Fin.ext (by match a with | ⟨0, _⟩ => rfl | ⟨1, _⟩ => rfl)
  simp only [hl, hr, hb]

/-- The output layer: `h2 · W3 + b3`, one column. -/
theorem layer3 : val_main_v70 (F := Ideal) x0 x1 x2 x3 x4 x5 x6 x7 x8 x9
    = lin (n := 131072) (K := 64) (M := 1) (val_main_v66 (F := Ideal) x0 x1 x2 x3 x4 x5 x6) (val_main_v56 (F := Ideal) x7 x8)
        (val_main_v68 (F := Ideal) x9) := by
  funext i
  obtain ⟨p, z, rfl⟩ : ∃ (p : Fin 131072) (z : Fin 1), i = ix2 p z := ⟨i 0, i 1, eq_ix2 i⟩
  obtain rfl : z = 0 := Subsingleton.elim _ _
  rw [lin_apply, val_main_v70_apply, val_main_v67_apply, val_main_v69_apply]
  show (∑ k : Fin 64, val_main_v66 (F := Ideal) x0 x1 x2 x3 x4 x5 x6 (lidx_main_v67 (ix2 p 0) k)
        * val_main_v56 (F := Ideal) x7 x8 (ridx_main_v67 (ix2 p 0) k))
      + val_main_v68 (F := Ideal) x9 (idx_main_v69 (ix2 p 0)) = _
  have hl : ∀ k : Fin 64, lidx_main_v67 (ix2 p (0 : Fin 1)) k = ix2 p k := fun k => funext fun a => Fin.ext (by match a with | ⟨0, _⟩ => rfl | ⟨1, _⟩ => rfl)
  have hr : ∀ k : Fin 64, ridx_main_v67 (ix2 p (0 : Fin 1)) k = ix2 k (0 : Fin 1) := fun k => funext fun a => Fin.ext (by match a with | ⟨0, _⟩ => rfl | ⟨1, _⟩ => rfl)
  have hb : idx_main_v69 (ix2 p (0 : Fin 1)) = ix2 (0 : Fin 1) (0 : Fin 1) := funext fun a => Fin.ext (by match a with | ⟨0, _⟩ => rfl | ⟨1, _⟩ => rfl)
  simp only [hl, hr, hb]

/-- The reference's result is the perceptron of the input, the densified weights and the bias rows. -/
theorem ref_eq : val_main_v70 (F := Ideal) x0 x1 x2 x3 x4 x5 x6 x7 x8 x9
    = mlp (n := 131072) x0 (val_main_v18 (F := Ideal) x1 x2) (val_main_v58 (F := Ideal) x3) (val_main_v37 (F := Ideal) x4 x5)
        (val_main_v63 (F := Ideal) x6) (val_main_v56 (F := Ideal) x7 x8) (val_main_v68 (F := Ideal) x9) := by
  unfold mlp
  rw [← layer1, ← layer2]
  exact layer3 x0 x1 x2 x3 x4 x5 x6 x7 x8 x9

end Cert.ReferenceIdeal.RefValue

end
-- ==== Proof.lean ====
/-
  A perceptron of three dense layers on 131072 rows of 768 features: the kernel against its reference, equal over the
  extended reals.

  Both programs first densify three sparse weight matrices (768 × 64, 64 × 64, 64 × 1) by the same scatter-add of the
  same arguments into zeros. The reference then computes, on the whole input at once,

      h1 = max (x · W1 + b1) 0,   h2 = max (h1 · W2 + b2) 0,   out = h2 · W3 + b3.

  The kernel rounds W1, W2 and the activations to a shorter float format on their way into its matrix products (on the
  extended reals a change of format is the identity), transposes W3 into a row, and runs a grid of 32 points, each on
  4096 rows: two matrix products into zero accumulators with the bias row added and the maximum with zero taken, then,
  for the one output column, the rows of h2 times the weight row, summed along each row, plus b3.

  Entry by entry both are the same nested sums of the same products in the same order, so no law of arithmetic is
  needed beyond reading each operation at an index, and the inputs' finiteness is never used:
  * the body's stored value is the perceptron of its loaded blocks, and the perceptron's row `p` depends on the
    input's row `p` alone, so block `t` of the result is block `t` of the perceptron of the whole input; the 32 blocks
    cover the result (`Cert.KernelIdeal.Whole.run`);
  * the small arrays the region reads are the reference's densified matrices and one-row biases, the scatter-adds
    matched as whole terms and never opened;
  * the reference's run, read stage by stage, is the same perceptron (`Cert.ReferenceIdeal.RefValue.ref_eq`).
  The idealized kernel is the kernel's own text read over the extended reals (no operation was rewritten), so the
  idealization claim is trivial; the three frames are the programs' runs with the result dropped.
-/
import proofs.«167410_j27573690040595_2_alg».proof.Defs
import proofs.«167410_j27573690040595_2_alg».proof.Proof.Gen.Kernel
import proofs.«167410_j27573690040595_2_alg».proof.Proof.Gen.Kernel.Skeleton
import proofs.«167410_j27573690040595_2_alg».proof.Proof.Gen.Kernel.Launch
import proofs.«167410_j27573690040595_2_alg».proof.Proof.Gen.Kernel.Points
import proofs.«167410_j27573690040595_2_alg».proof.Proof.Gen.Kernel.Frame
import proofs.«167410_j27573690040595_2_alg».proof.Proof.Gen.KernelIdeal
import proofs.«167410_j27573690040595_2_alg».proof.Proof.Gen.KernelIdeal.Skeleton
import proofs.«167410_j27573690040595_2_alg».proof.Proof.Gen.KernelIdeal.Launch
import proofs.«167410_j27573690040595_2_alg».proof.Proof.Gen.KernelIdeal.Points
import proofs.«167410_j27573690040595_2_alg».proof.Proof.Gen.KernelIdeal.Frame
import proofs.«167410_j27573690040595_2_alg».proof.Proof.Gen.ReferenceIdeal
import proofs.«167410_j27573690040595_2_alg».proof.Proof.Gen.Pre_finite_inputs
import proofs.«167410_j27573690040595_2_alg».proof.Proof.Gen.KernelIdeal.Value
import proofs.«167410_j27573690040595_2_alg».proof.Proof.Gen.ReferenceIdeal.Run
import proofs.«167410_j27573690040595_2_alg».proof.Proof.Gen.ReferenceIdeal.Read
import proofs.«167410_j27573690040595_2_alg».proof.Proof.KernelValue
import proofs.«167410_j27573690040595_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the result array at the perceptron of the
    arguments: the kernel's run gives it block by block, the reference's run stage by stage. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.ReferenceIdeal.RefValue.ref_eq]
  obtain ⟨h0, h1, h2, h3, h4, h5, h6, h7, h8, h9⟩ := hagree c
  rw [h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
